-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S256x128 : Shape := ⟨2, ![256, 128]⟩
abbrev S128x64 : Shape := ⟨2, ![128, 64]⟩
abbrev S1700000 : Shape := ⟨1, ![1700000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128x64 : S_.BroadcastsInDim S128x64 (![] : Fin 0 → Fin S128x64.rank)
  reducesTo_S128x64_S_d0_1 : S128x64.ReducesTo [0, 1] S_

variable [Facts]

def fn {F : FTy → Type} [FloatOps F] (main_arg0 : FVec F S100000x256 .f32) (main_arg1 : FVec F S256x128 .f32) (main_arg2 : FVec F S128x64 .f32) (main_arg3 : IVec S1700000 32) (main_arg4 : IVec S1700000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  main_v13
-- ==== Kernel.lean ====
abbrev S100000x256 : Shape := ⟨2, ![100000, 256]⟩
abbrev S256x128 : Shape := ⟨2, ![256, 128]⟩
abbrev S128x64 : Shape := ⟨2, ![128, 64]⟩
abbrev S1700000 : Shape := ⟨1, ![1700000]⟩
abbrev S_ : Shape := ⟨0, ![]⟩
abbrev S100000 : Shape := ⟨1, ![100000]⟩
abbrev S1700000x1 : Shape := ⟨2, ![1700000, 1]⟩
abbrev S100000x128 : Shape := ⟨2, ![100000, 128]⟩
abbrev S5000x256 : Shape := ⟨2, ![5000, 256]⟩
abbrev S5000x128 : Shape := ⟨2, ![5000, 128]⟩
abbrev S1700000x128 : Shape := ⟨2, ![1700000, 128]⟩
abbrev S100000x64 : Shape := ⟨2, ![100000, 64]⟩
abbrev S5000x64 : Shape := ⟨2, ![5000, 64]⟩
abbrev S1700000x64 : Shape := ⟨2, ![1700000, 64]⟩

abbrev nBuf : Space → Nat
  | .hbm => 72
  | .vmem => 10
  | .smem => 0
  | _ => 0

abbrev bufTy : (tb : Table) → Fin (tcTables nBuf tb) → BufTy
  | .hbm, ⟨0, _⟩ => ⟨S100000x256, .f32⟩
  | .hbm, ⟨1, _⟩ => ⟨S256x128, .f32⟩
  | .hbm, ⟨2, _⟩ => ⟨S128x64, .f32⟩
  | .hbm, ⟨3, _⟩ => ⟨S1700000, .i32⟩
  | .hbm, ⟨4, _⟩ => ⟨S1700000, .i32⟩
  | .hbm, ⟨5, _⟩ => ⟨S_, .f32⟩
  | .hbm, ⟨6, _⟩ => ⟨S1700000, .f32⟩
  | .hbm, ⟨7, _⟩ => ⟨S_, .f32⟩
  | .hbm, ⟨8, _⟩ => ⟨S100000, .f32⟩
  | .hbm, ⟨9, _⟩ => ⟨S1700000x1, .i32⟩
  | .hbm, ⟨10, _⟩ => ⟨S100000, .f32⟩
  | .hbm, ⟨11, _⟩ => ⟨S100000, .f32⟩
  | .hbm, ⟨12, _⟩ => ⟨S_, .f32⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .i32⟩
  | .hbm, ⟨20, _⟩ => ⟨S1700000, .i32⟩
  | .hbm, ⟨21, _⟩ => ⟨S1700000, .i1⟩
  | .hbm, ⟨22, _⟩ => ⟨S_, .i32⟩
  | .hbm, ⟨23, _⟩ => ⟨S1700000, .i32⟩
  | .hbm, ⟨24, _⟩ => ⟨S1700000, .i32⟩
  | .hbm, ⟨25, _⟩ => ⟨S1700000, .i32⟩
  | .hbm, ⟨26, _⟩ => ⟨S1700000x1, .i32⟩
  | .hbm, ⟨27, _⟩ => ⟨S1700000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S1700000, .f32⟩
  | .hbm, ⟨38, _⟩ => ⟨S100000x128, .f32⟩
  | .hbm, ⟨39, _⟩ => ⟨S1700000x1, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000x128, .f32⟩
  | .hbm, ⟨49, _⟩ => ⟨S1700000x128, .f32⟩
  | .hbm, ⟨50, _⟩ => ⟨S1700000x128, .f32⟩
  | .hbm, ⟨51, _⟩ => ⟨S_, .f32⟩
  | .hbm, ⟨52, _⟩ => ⟨S100000x128, .f32⟩
  | .hbm, ⟨53, _⟩ => ⟨S1700000x1, .i32⟩
  | .hbm, ⟨54, _⟩ => ⟨S100000x128, .f32⟩
  | .hbm, ⟨55, _⟩ => ⟨S100000x64, .f32⟩
  | .hbm, ⟨56, _⟩ => ⟨S1700000x1, .f32⟩
  | .hbm, ⟨57, _⟩ => ⟨S_, .i32⟩
  | .hbm, ⟨58, _⟩ => ⟨S1700000, .i32⟩
  | .hbm, ⟨59, _⟩ => ⟨S1700000, .i1⟩
  | .hbm, ⟨60, _⟩ => ⟨S_, .i32⟩
  | .hbm, ⟨61, _⟩ => ⟨S1700000, .i32⟩
  | .hbm, ⟨62, _⟩ => ⟨S1700000, .i32⟩
  | .hbm, ⟨63, _⟩ => ⟨S1700000, .i32⟩
  | .hbm, ⟨64, _⟩ => ⟨S1700000x1, .i32⟩
  | .hbm, ⟨65, _⟩ => ⟨S1700000x64, .f32⟩
  | .hbm, ⟨66, _⟩ => ⟨S1700000x64, .f32⟩
  | .hbm, ⟨67, _⟩ => ⟨S1700000x64, .f32⟩
  | .hbm, ⟨68, _⟩ => ⟨S_, .f32⟩
  | .hbm, ⟨69, _⟩ => ⟨S100000x64, .f32⟩
  | .hbm, ⟨70, _⟩ => ⟨S1700000x1, .i32⟩
  | .hbm, ⟨71, _⟩ => ⟨S100000x64, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x64, .f32⟩
  | .local _ .vmem, ⟨8, _⟩ => ⟨S5000x64, .f32⟩
  | .local _ .vmem, ⟨9, _⟩ => ⟨S5000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_4 : Ref sig .tc := ⟨.hbm, 28, rfl⟩
abbrev main_v15 : Ref sig .tc := ⟨.hbm, 29, rfl⟩
abbrev main_v16 : Ref sig .tc := ⟨.hbm, 30, rfl⟩
abbrev main_c_5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_6 : Ref sig .tc := ⟨.hbm, 40, rfl⟩
abbrev main_v25 : Ref sig .tc := ⟨.hbm, 41, rfl⟩
abbrev main_v26 : Ref sig .tc := ⟨.hbm, 42, rfl⟩
abbrev main_c_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_8 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c_9 : Ref sig .tc := ⟨.hbm, 57, rfl⟩
abbrev main_v39 : Ref sig .tc := ⟨.hbm, 58, rfl⟩
abbrev main_v40 : Ref sig .tc := ⟨.hbm, 59, rfl⟩
abbrev main_c_10 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_11 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x256_S256x128_S5000x128_1_0_0_1_n_n_wf : DotDims.WF S5000x256 S256x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v36) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v37) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x256 : Shape := ⟨2, ![100000, 256]⟩
abbrev S256x128 : Shape := ⟨2, ![256, 128]⟩
abbrev S128x64 : Shape := ⟨2, ![128, 64]⟩
abbrev S1700000 : Shape := ⟨1, ![1700000]⟩
abbrev S_ : Shape := ⟨0, ![]⟩
abbrev S100000 : Shape := ⟨1, ![100000]⟩
abbrev S1700000x1 : Shape := ⟨2, ![1700000, 1]⟩
abbrev S100000x128 : Shape := ⟨2, ![100000, 128]⟩
abbrev S1700000x128 : Shape := ⟨2, ![1700000, 128]⟩
abbrev S100000x64 : Shape := ⟨2, ![100000, 64]⟩
abbrev S1700000x64 : Shape := ⟨2, ![1700000, 64]⟩

abbrev nBuf : Space → Nat
  | .hbm => 75
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S256x128, .f32⟩
  | .hbm, ⟨2, _⟩ => ⟨S128x64, .f32⟩
  | .hbm, ⟨3, _⟩ => ⟨S1700000, .i32⟩
  | .hbm, ⟨4, _⟩ => ⟨S1700000, .i32⟩
  | .hbm, ⟨5, _⟩ => ⟨S_, .f32⟩
  | .hbm, ⟨6, _⟩ => ⟨S1700000, .f32⟩
  | .hbm, ⟨7, _⟩ => ⟨S_, .f32⟩
  | .hbm, ⟨8, _⟩ => ⟨S100000, .f32⟩
  | .hbm, ⟨9, _⟩ => ⟨S1700000x1, .i32⟩
  | .hbm, ⟨10, _⟩ => ⟨S100000, .f32⟩
  | .hbm, ⟨11, _⟩ => ⟨S100000, .f32⟩
  | .hbm, ⟨12, _⟩ => ⟨S_, .f32⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .i32⟩
  | .hbm, ⟨20, _⟩ => ⟨S1700000, .i32⟩
  | .hbm, ⟨21, _⟩ => ⟨S1700000, .i1⟩
  | .hbm, ⟨22, _⟩ => ⟨S_, .i32⟩
  | .hbm, ⟨23, _⟩ => ⟨S1700000, .i32⟩
  | .hbm, ⟨24, _⟩ => ⟨S1700000, .i32⟩
  | .hbm, ⟨25, _⟩ => ⟨S1700000, .i32⟩
  | .hbm, ⟨26, _⟩ => ⟨S1700000x1, .i32⟩
  | .hbm, ⟨27, _⟩ => ⟨S1700000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S1700000, .f32⟩
  | .hbm, ⟨38, _⟩ => ⟨S100000x128, .f32⟩
  | .hbm, ⟨39, _⟩ => ⟨S1700000x1, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000x128, .f32⟩
  | .hbm, ⟨49, _⟩ => ⟨S1700000x128, .f32⟩
  | .hbm, ⟨50, _⟩ => ⟨S1700000x128, .f32⟩
  | .hbm, ⟨51, _⟩ => ⟨S_, .f32⟩
  | .hbm, ⟨52, _⟩ => ⟨S100000x128, .f32⟩
  | .hbm, ⟨53, _⟩ => ⟨S1700000x1, .i32⟩
  | .hbm, ⟨54, _⟩ => ⟨S100000x128, .f32⟩
  | .hbm, ⟨55, _⟩ => ⟨S_, .f32⟩
  | .hbm, ⟨56, _⟩ => ⟨S100000x128, .f32⟩
  | .hbm, ⟨57, _⟩ => ⟨S100000x128, .f32⟩
  | .hbm, ⟨58, _⟩ => ⟨S100000x64, .f32⟩
  | .hbm, ⟨59, _⟩ => ⟨S1700000x1, .f32⟩
  | .hbm, ⟨60, _⟩ => ⟨S_, .i32⟩
  | .hbm, ⟨61, _⟩ => ⟨S1700000, .i32⟩
  | .hbm, ⟨62, _⟩ => ⟨S1700000, .i1⟩
  | .hbm, ⟨63, _⟩ => ⟨S_, .i32⟩
  | .hbm, ⟨64, _⟩ => ⟨S1700000, .i32⟩
  | .hbm, ⟨65, _⟩ => ⟨S1700000, .i32⟩
  | .hbm, ⟨66, _⟩ => ⟨S1700000, .i32⟩
  | .hbm, ⟨67, _⟩ => ⟨S1700000x1, .i32⟩
  | .hbm, ⟨68, _⟩ => ⟨S1700000x64, .f32⟩
  | .hbm, ⟨69, _⟩ => ⟨S1700000x64, .f32⟩
  | .hbm, ⟨70, _⟩ => ⟨S1700000x64, .f32⟩
  | .hbm, ⟨71, _⟩ => ⟨S_, .f32⟩
  | .hbm, ⟨72, _⟩ => ⟨S100000x64, .f32⟩
  | .hbm, ⟨73, _⟩ => ⟨S1700000x1, .i32⟩
  | .hbm, ⟨74, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_4 : Ref sig .tc := ⟨.hbm, 28, rfl⟩
abbrev main_v15 : Ref sig .tc := ⟨.hbm, 29, rfl⟩
abbrev main_v16 : Ref sig .tc := ⟨.hbm, 30, rfl⟩
abbrev main_c_5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_6 : Ref sig .tc := ⟨.hbm, 40, rfl⟩
abbrev main_v25 : Ref sig .tc := ⟨.hbm, 41, rfl⟩
abbrev main_v26 : Ref sig .tc := ⟨.hbm, 42, rfl⟩
abbrev main_c_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_8 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_call1_cst : Ref sig .tc := ⟨.hbm, 55, rfl⟩
abbrev main_call1_v0 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c_9 : Ref sig .tc := ⟨.hbm, 60, rfl⟩
abbrev main_v40 : Ref sig .tc := ⟨.hbm, 61, rfl⟩
abbrev main_v41 : Ref sig .tc := ⟨.hbm, 62, rfl⟩
abbrev main_c_10 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_11 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩

abbrev nD : Nat := 1
abbrev τ : Topo := Topo.v7x

variable {F : FTy → Type} [FloatOps F]

class Facts₀ : Prop where
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The whole program's run with its result named.

  The program is seven segments: three stretches of host operations, the first dense stage, a stretch, the second
  dense stage, a last stretch. Each segment hands the next the contents of every buffer; the contents after the last
  stretch are a fold through the seven, and every weakly fair execution ends with each buffer — the result's among
  them — at that fold's value, the five argument arrays as they were launched.
-/
import proofs.«149226_j8297876816011_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result buffer at the contents the seven segments' fold gives it
    (`W7`) and the argument arrays as launched. -/
theorem run_fold : θ_run defs (onTc (τ := τ) (main (F := F))) ⟨m, fun _ => 0, ρ⟩ (fun r => ∀ c : Dev nD,
      r.2.mem ((c.tc : Thread nD τ).loc main_v50) = W7 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v50 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c)⟩)

end Cert.KernelIdeal.Whole

end
-- ==== Proof.LibPlainDot.lean ====
/-
  A plain matrix product read at coordinates.

  For the dimension numbers of an `M×K` by `K×N` product (contract the left operand's second axis with the right
  operand's first, no batch axes), the contraction's sum at the output entry `(r, c)` is the textbook
  `∑ k, lhs (r, k) * rhs (k, c)`: the one-axis contraction index is re-indexed by its coordinate.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The dimension numbers `<[1], [0], [0], [1]>` of an `M×K` by `K×N` product, at any witness of their conditions. -/
abbrev dims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's index at output `(r, c)` and contraction index `q` is `(r, q)`. -/
theorem lhsIdx_eq (r : Fin M) (c : Fin N) (k : Fin K) :
    (dims M K N wf).lhsIdx (ix2 r c) ((contrEquiv1 (dims M K N wf) K rfl rfl).symm k) = ix2 r k := by
  have hk := contrEquiv1_symm_val (dims M K N wf) K rfl rfl k
  funext a
  refine Fin.ext ?_
  match a with
  | ⟨0, _⟩ =>
    show ((dims M K N wf).lhsIdx (ix2 r c) _ 0).val = r.val
    unfold DotDims.lhsIdx
    rw [dif_neg (show ¬(0 : Fin 2) ∈ (dims M K N wf).lhsBatch from List.not_mem_nil),
      dif_pos (show (0 : Fin 2) ∈ (dims M K N wf).lhsNonContracting from List.mem_singleton.mpr rfl)]
    rfl
  | ⟨1, _⟩ =>
    exact ((dims M K N wf).lhsIdx_val_of_single rfl (ix2 r c) _).trans hk

/-- The right operand's index at output `(r, c)` and contraction index `q` is `(q, c)`. -/
theorem rhsIdx_eq (r : Fin M) (c : Fin N) (k : Fin K) :
    (dims M K N wf).rhsIdx (ix2 r c) ((contrEquiv1 (dims M K N wf) K rfl rfl).symm k) = ix2 k c := by
  have hk := contrEquiv1_symm_val (dims M K N wf) K rfl rfl k
  funext a
  refine Fin.ext ?_
  match a with
  | ⟨0, _⟩ =>
    exact ((dims M K N wf).rhsIdx_val_of_single rfl (ix2 r c) _).trans hk
  | ⟨1, _⟩ =>
    show ((dims M K N wf).rhsIdx (ix2 r c) _ 1).val = c.val
    unfold DotDims.rhsIdx
    rw [dif_neg (show ¬(1 : Fin 2) ∈ (dims M K N wf).rhsBatch from List.not_mem_nil),
      dif_pos (show (1 : Fin 2) ∈ (dims M K N wf).rhsNonContracting from List.mem_singleton.mpr rfl)]
    rfl

/-- THE CONTRACTION at `(r, c)`: the sum over `k` of `lhs (r, k) * rhs (k, c)`. -/
theorem contraction_apply (lhs : (⟨2, ![M, K]⟩ : Shape).Idx → EReal) (rhs : (⟨2, ![K, N]⟩ : Shape).Idx → EReal)
    (r : Fin M) (c : Fin N) :
    (∑ q : (dims M K N wf).contr.Idx,
        lhs ((dims M K N wf).lhsIdx (ix2 r c) q) * rhs ((dims M K N wf).rhsIdx (ix2 r c) q))
      = ∑ k : Fin K, lhs (ix2 r k) * rhs (ix2 k c) := by
  rw [← Equiv.sum_comp (contrEquiv1 (dims M K N wf) K rfl rfl).symm]
  refine Finset.sum_congr rfl fun k _ => ?_
  rw [lhsIdx_eq wf r c k, rhsIdx_eq wf r c k]

/-- A matrix-unit product into a zero accumulator, at the exact-real instance, read at `(r, c)`. -/
theorem matmul_zero_apply {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (dims M K N wf) prec lhs rhs (constant ⟨2, ![M, N]⟩ .f32 0x00000000#32) (ix2 r c)
      = ∑ k : Fin K, lhs (ix2 r k) * rhs (ix2 k c) := by
  rw [Ideal.matmul_constant_zero_apply]
  exact contraction_apply wf lhs rhs r c

/-- The host's product, at the exact-real instance, read at `(r, c)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (dims M K N wf) prec sched lhs rhs (ix2 r c)
      = ∑ k : Fin K, lhs (ix2 r k) * rhs (ix2 k c) := by
  rw [Ideal.dotGeneral_apply]
  exact contraction_apply wf lhs rhs r c

end Idealize.ShloMosaic.PlainDot

end
-- ==== Proof.LibRowBlockDot.lean ====
/-
  A plain matrix product `x · W` as one function of the two arrays, and its blocks of rows.

  For `x` of `N × K` and `W` of `K × C` the product's entry at `(r, c)` is `∑ k, x (r, k) * W (k, c)` on the extended
  reals (`proj`). Two readings of it, generic in the extents. The host's `dot_general` of the whole arrays, with the
  dimension numbers of a plain product, is this function. And a block of `B` consecutive rows of it is the matrix
  unit's product, into a zero accumulator, of that block of rows of `x` with the whole of `W`: row `p` of block `b` is
  row `b * B + p` of the array, and the contraction runs over the same `K` terms. This is the step between a kernel
  that tiles the rows of a product over its grid and a reference that forms the product at once.
-/
import Idealize.ShloMosaic.PureOps.Ideal
import Idealize.ShloMosaic.Lib.ValueIdx
import proofs.«149226_j8297876816011_1_alg».proof.Proof.LibPlainDot

noncomputable section

namespace Idealize.ShloMosaic.RowBlockDot

open Idealize.ShloMosaic Idealize.ShloMosaic.ValueIdx

variable {N K C : Nat}

/-- The product: entry `(i 0, i 1)` is the sum over `k` of `x (i 0, k) * W (k, i 1)`. -/
def proj (x : (⟨2, ![N, K]⟩ : Shape).Idx → EReal) (W : (⟨2, ![K, C]⟩ : Shape).Idx → EReal) :
    (⟨2, ![N, C]⟩ : Shape).Idx → EReal :=
  fun i => ∑ k : Fin K, x (ix2 (n0 := N) (n1 := K) (i 0) k) * W (ix2 (n0 := K) (n1 := C) k (i 1))

/-- The product at named coordinates. -/
theorem proj_apply (x : (⟨2, ![N, K]⟩ : Shape).Idx → EReal) (W : (⟨2, ![K, C]⟩ : Shape).Idx → EReal)
    (r : Fin N) (c : Fin C) : proj x W (ix2 r c) = ∑ k : Fin K, x (ix2 r k) * W (ix2 k c) := rfl

/-- The host's product of the whole arrays is `proj`. -/
theorem dotGeneral_eq_proj (wf : DotDims.WF ⟨2, ![N, K]⟩ ⟨2, ![K, C]⟩ ⟨2, ![N, C]⟩ [1] [0] [0] [1] [] [])
    {φ₁ φ₂ : FTy} (prec : Option ContractPrecision) (sched : HostSchedule)
    (x : FVec Ideal ⟨2, ![N, K]⟩ φ₁) (W : FVec Ideal ⟨2, ![K, C]⟩ φ₂) :
    FloatOps.dotGeneral (PlainDot.dims N K C wf) prec sched x W = proj x W := by
  funext i
  obtain ⟨r, c, rfl⟩ : ∃ (r : Fin N) (c : Fin C), i = ix2 r c := ⟨i 0, i 1, eq_ix2 i⟩
  exact PlainDot.dotGeneral_apply wf prec sched x W r c

/-- Block `b` of `B` rows of the product: when `x0` holds rows `b * B …` of `X` and `x1` holds `W`, the matrix unit's
    product of `x0` and `x1` into a zero accumulator is, at `(p, q)`, the product at `(b * B + p, q)`. -/
theorem matmul_block {B : Nat} (wf : DotDims.WF ⟨2, ![B, K]⟩ ⟨2, ![K, C]⟩ ⟨2, ![B, C]⟩ [1] [0] [0] [1] [] [])
    {φ₁ φ₂ : FTy} (prec : Option ContractPrecision)
    (X : (⟨2, ![N, K]⟩ : Shape).Idx → EReal) (W : (⟨2, ![K, C]⟩ : Shape).Idx → EReal)
    (x0 : FVec Ideal ⟨2, ![B, K]⟩ φ₁) (x1 : FVec Ideal ⟨2, ![K, C]⟩ φ₂) (b : Nat)
    (hrow : ∀ p : Fin B, b * B + p.val < N)
    (h0 : ∀ (p : Fin B) (k : Fin K), x0 (ix2 p k) = X (ix2 ⟨b * B + p.val, hrow p⟩ k))
    (h1 : ∀ (k : Fin K) (q : Fin C), x1 (ix2 k q) = W (ix2 k q)) (p : Fin B) (q : Fin C) :
    FloatOps.matmul (PlainDot.dims B K C wf) prec x0 x1 (constant ⟨2, ![B, C]⟩ .f32 0x00000000#32) (ix2 p q)
      = proj X W (ix2 ⟨b * B + p.val, hrow p⟩ q) := by
  rw [PlainDot.matmul_zero_apply wf prec x0 x1 p q, proj_apply]
  exact Finset.sum_congr rfl fun k _ => by rw [h0 p k, h1 k q]

end Idealize.ShloMosaic.RowBlockDot

end
-- ==== Proof.Dense1.lean ====
/-
  The first dense stage: the product X · W1 formed twenty rows-blocks at a time.

  The grid has twenty points; point t reads rows 5000 t … 5000 t + 4999 of X (all 256 columns) and the whole of W1,
  multiplies them on the matrix unit into a zero accumulator, and writes rows 5000 t … 5000 t + 4999 of the result.
  On the extended reals the rounding of the two operands to a narrower format is the identity and the accumulator
  contributes nothing, so the entry (r, c) of the block is the sum over k of X (5000 t + r, k) · W1 (k, c): the
  blocks are restrictions of ONE function of the two arrays, the textbook product, and since the twenty blocks tile
  the result array, the array ends holding that product.
-/
import proofs.«149226_j8297876816011_1_alg».proof.Proof.Gen.KernelIdeal.Frame
import proofs.«149226_j8297876816011_1_alg».proof.Proof.LibRowBlockDot
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.Dense1

open Cert.KernelIdeal Cert.KernelIdeal.Gen

variable (V : (c : Dev nD) → (b : Ref sig .tc) → Buf (Elt Ideal) ((c : Thread nD τ).loc b))

theorem origin : (![0, 0] : Fin 2 → Nat) = fun _ => 0 := funext fun a => by fin_cases a <;> rfl

/-- The body's product at an entry of the block: when the first operand holds rows `b * 5000 …` of `X` and the second
    holds `W`, the entry `(p, q)` is the product's entry `(b * 5000 + p, q)`. -/
theorem product_block (X : S100000x256.Idx → EReal) (W : S256x128.Idx → EReal)
    (x0 : Vec Ideal S5000x256 .f32) (x1 : Vec Ideal S256x128 .f32) (b : Nat)
    (hrow : ∀ p : Fin 5000, b * 5000 + p.val < 100000)
    (h0 : ∀ (p : Fin 5000) (k : Fin 256), x0 (ix2 p k) = X (ix2 ⟨b * 5000 + p.val, hrow p⟩ k))
    (h1 : ∀ (k : Fin 256) (q : Fin 128), x1 (ix2 k q) = W (ix2 k q)) (p : Fin 5000) (q : Fin 128) :
    k0_pay1 (F := Ideal) x0 x1 (ix2 p q) = RowBlockDot.proj X W (ix2 ⟨b * 5000 + p.val, hrow p⟩ q) := by
  unfold k0_pay1
  exact RowBlockDot.matmul_block dot_S5000x256_S256x128_S5000x128_1_0_0_1_n_n_wf none X W _ _ b hrow h0 h1 p q

/-- Where the three windows' blocks sit at point `t`: the row blocks of `X` and of the result move with the point,
    `W1` stays. -/
theorem block_positions : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The first window's block at point `t` is rows `5000 t …` of `X`. -/
theorem rows_block (c : Dev nD) (t : Fin cfg0.N) (y : S5000x256.Idx) (i : S100000x256.Idx)
    (h0 : (i 0).val = t.val * 5000 + (y 0).val) (h1 : (i 1).val = (y 1).val) :
    (iblk0 V c 0 t : Vec Ideal S5000x256 .f32) y = (V c main_arg0 : S100000x256.Idx → EReal) i := by
  obtain ⟨e0, e1, -, -, -, -⟩ := block_positions t
  unfold iblk0
  rw [View.read_apply]
  show V c main_arg0 _ = V c main_arg0 _
  refine congrArg (V c main_arg0) ?_
  funext a
  apply Fin.ext
  match a with
  | ⟨0, _⟩ => show win0_0.index t (0 : Fin 2) * 5000 + 1 * (y 0).val = (i 0).val; rw [e0, h0]; omega
  | ⟨1, _⟩ => show win0_0.index t (1 : Fin 2) * 256 + 1 * (y 1).val = (i 1).val; rw [e1, h1]; omega

/-- The second window's block at every point is the whole of `W1`. -/
theorem weights_block (c : Dev nD) (t : Fin cfg0.N) (y : S256x128.Idx) :
    (iblk0 V c 1 t : Vec Ideal S256x128 .f32) y = (V c main_arg1 : S256x128.Idx → EReal) y := by
  obtain ⟨-, -, e0, e1, -, -⟩ := block_positions t
  unfold iblk0
  rw [View.read_apply]
  show V c main_arg1 _ = V c main_arg1 _
  refine congrArg (V c main_arg1) ?_
  funext a
  apply Fin.ext
  match a with
  | ⟨0, _⟩ => show win0_1.index t (0 : Fin 2) * 256 + 1 * (y 0).val = (y 0).val; rw [e0]; omega
  | ⟨1, _⟩ => show win0_1.index t (1 : Fin 2) * 128 + 1 * (y 1).val = (y 1).val; rw [e1]; omega

/-- The product of the two arrays as the region finds them. -/
abbrev product (c : Dev nD) : S100000x128.Idx → EReal :=
  RowBlockDot.proj (V c main_arg0 : S100000x256.Idx → EReal) (V c main_arg1 : S256x128.Idx → EReal)

theorem point_lt (t : Fin cfg0.N) : t.val < 20 := lt_of_lt_of_eq t.isLt N_0

/-- What point `t` writes back is block `t` of the product. -/
theorem flushed_eq (c : Dev nD) (t : Fin cfg0.N) :
    (dat0 V c).flushed 2 t = ((cfg0.win 2).blk t).view.read (Elt Ideal) (product V c) := by
  show (cfg0.win 2).cut (grid0.coords t) ((dat0 V c).after 2 t) = _
  rw [after0_2]
  unfold out0_2
  rw [View.canon_unit_zero origin]
  simp only [View.ld_unit_zero (S := S5000x256) origin, View.ld_unit_zero (S := S256x128) origin]
  obtain ⟨-, -, -, -, e0, e1⟩ := block_positions t
  have ht := point_lt t
  funext j
  show k0_pay1 (F := Ideal) (iblk0 V c 0 t) (iblk0 V c 1 t) j = product V c (((cfg0.win 2).blk t).view.emb j)
  have hrow : ∀ p : Fin 5000, t.val * 5000 + p.val < 100000 := fun p => by have := p.isLt; omega
  have hj : (j : S5000x128.Idx) = ix2 (j 0) (j 1) := eq_ix2 j
  have hi : ((cfg0.win 2).blk t).view.emb j = ix2 (⟨t.val * 5000 + (j 0).val, hrow (j 0)⟩ : Fin 100000) (j 1) := by
    funext a
    apply Fin.ext
    match a with
    | ⟨0, _⟩ => show win0_2.index t (0 : Fin 2) * 5000 + 1 * (j 0).val = t.val * 5000 + (j 0).val; rw [e0]; omega
    | ⟨1, _⟩ => show win0_2.index t (1 : Fin 2) * 128 + 1 * (j 1).val = (j 1).val; rw [e1]; omega
  rw [hi, hj]
  exact product_block (V c main_arg0) (V c main_arg1) (iblk0 V c 0 t) (iblk0 V c 1 t) t.val hrow
    (fun p k => rows_block V c t (ix2 p k) (ix2 ⟨t.val * 5000 + p.val, hrow p⟩ k) rfl rfl)
    (fun k q => weights_block V c t (ix2 k q)) (j 0) (j 1)

/-- An index of the result array is in point `t`'s block iff each coordinate is in the block's range on its axis. -/
theorem mem_block (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v23).slice (win0_2.rect t)).set ↔ _
  rw [View.set_slice_whole, Rect.mem_set_unit]
  exact Iff.rfl

/-- Row `r` of the result lies in the block of point `r / 5000`: the twenty blocks tile the array. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  let t : Fin cfg0.N := ⟨(i 0).val / 5000, by rw [show cfg0.N = 20 from N_0]; omega⟩
  obtain ⟨-, -, -, -, e0, e1⟩ := block_positions t
  refine ⟨t, flush0_2 t, ?_⟩
  rw [mem_block]
  intro a
  match a with
  | ⟨0, _⟩ =>
    show win0_2.index t (0 : Fin 2) * 5000 ≤ (i 0).val ∧ (i 0).val < win0_2.index t (0 : Fin 2) * 5000 + 5000
    rw [e0]; show (i 0).val / 5000 * 5000 ≤ (i 0).val ∧ (i 0).val < (i 0).val / 5000 * 5000 + 5000; omega
  | ⟨1, _⟩ =>
    show win0_2.index t (1 : Fin 2) * 128 ≤ (i 1).val ∧ (i 1).val < win0_2.index t (1 : Fin 2) * 128 + 128
    rw [e1]; omega

/-- THE RESULT ARRAY of the first dense stage after its region: the product of the two arrays it was entered with. -/
theorem result_array (c : Dev nD) : (dat0 V c).arrAt 2 cfg0.N = product V c :=
  (dat0 V c).arrAt_eq_of_cover 2 (product V c) (fun t _ => flushed_eq V c t) covered

end Cert.KernelIdeal.Dense1

end
-- ==== Proof.HostStages.lean ====
/-
  The graph side of the two-layer graph convolution: the operations around the two dense stages.

  With `row` and `col` the end points of the 1,700,000 edges over 100,000 nodes:
    * the degree of node n is the number of edges whose `row` is n (a scatter-add of ones into zeros);
    * d(n) = 1 / max (1e-12, sqrt (degree n));
    * the weight of edge e is d(row e) · d(col e), both factors looked up with a negative node number counted from
      the end (`wrap`);
    * one aggregation step takes a table T of node features and returns, at node n, the sum over the edges e with
      row e = n of weight e · T (col e): a row lookup, a product with the weight broadcast along the row, and a
      scatter-add of the rows into zeros.
  The program runs the weights once, then aggregation over 128 columns between the two dense stages and over 64
  columns after the second. Each stretch of host operations, run from ANY contents of the buffers, leaves its result
  buffer at the function below of the buffers it reads, and leaves the buffers it does not write as they were.
-/
import proofs.«149226_j8297876816011_1_alg».proof.Proof.Gen.KernelIdeal.Launch
import Idealize.ShloMosaic.Lib.StableHlo.Run

noncomputable section

open Idealize.ShloMosaic Idealize.ShloMosaic.TcCoe Idealize.SL.Sem Idealize.ShloMosaic.StableHlo

namespace Cert.KernelIdeal.Graph

open Cert.KernelIdeal Cert.KernelIdeal.Gen

variable {F : FTy → Type} [FloatOps F]

/-- A node number per edge as the lookups take it: a negative one counted from the end, then as a column. -/
def wrap (x : (⟨S1700000, .i32⟩ : BufTy).Contents (Elt F)) : (⟨S1700000x1, .i32⟩ : BufTy).Contents (Elt F) :=
  broadcastInDim S1700000x1 ![0] bcast_S1700000_S1700000x1_0
    (select (cmpi .slt x (broadcastInDim S1700000 ![] bcast_S_S1700000 (constantI S_ 32 0#32)))
      (addi x (broadcastInDim S1700000 ![] bcast_S_S1700000 (constantI S_ 32 100000#32))) x)

/-- The degree of every node: ones added at the edges' `row`. -/
def degree (row : (⟨S1700000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant S_ .f32 0x00000000#32))
    (broadcastInDim S1700000x1 ![0] bcast_S1700000_S1700000x1_0 row)
    (broadcastInDim S1700000 ![] bcast_S_S1700000 (constant S_ .f32 0x3F800000#32))

/-- The square root of the degree, bounded below by the small constant. -/
def clippedRoot (row : (⟨S1700000, .i32⟩ : BufTy).Contents (Elt F)) : (⟨S100000, .f32⟩ : BufTy).Contents (Elt F) :=
  maximumf (broadcastInDim S100000 ![] bcast_S_S100000 (id (constant S_ .f32 0x2B8CBCCC#32))) (Host.sqrt (degree row))

/-- Its reciprocal, per node. -/
def invRoot (row : (⟨S1700000, .i32⟩ : BufTy).Contents (Elt F)) : (⟨S100000, .f32⟩ : BufTy).Contents (Elt F) :=
  Host.divf (broadcastInDim S100000 ![] bcast_S_S100000 (constant S_ .f32 0x3F800000#32)) (clippedRoot row)

/-- The weight of every edge: the two end points' reciprocal roots multiplied. -/
def edgeWeights (row col : (⟨S1700000, .i32⟩ : BufTy).Contents (Elt F)) : (⟨S1700000, .f32⟩ : BufTy).Contents (Elt F) :=
  mulf (Host.gather gather_S100000_S1700000x1_S1700000_n_0_n_n_0_1_1 (invRoot row) (wrap row))
    (Host.gather gather_S100000_S1700000x1_S1700000_n_0_n_n_0_1_1 (invRoot row) (wrap col))

/-- One aggregation step over 128 columns. -/
def aggregate128 (w : (⟨S1700000, .f32⟩ : BufTy).Contents (Elt F)) (T : (⟨S100000x128, .f32⟩ : BufTy).Contents (Elt F))
    (row col : (⟨S1700000, .i32⟩ : BufTy).Contents (Elt F)) : (⟨S100000x128, .f32⟩ : BufTy).Contents (Elt F) :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 row)
    (mulf (broadcastInDim S1700000x128 ![0, 1] bcast_S1700000x1_S1700000x128_0_1 (broadcastInDim S1700000x1 ![0] bcast_S1700000_S1700000x1_0 w))
      (Host.gather gather_S100000x128_S1700000x1_S1700000x128_1_0_n_n_0_1_1128 T (wrap col)))

/-- One aggregation step over 64 columns. -/
def aggregate64 (w : (⟨S1700000, .f32⟩ : BufTy).Contents (Elt F)) (T : (⟨S100000x64, .f32⟩ : BufTy).Contents (Elt F))
    (row col : (⟨S1700000, .i32⟩ : BufTy).Contents (Elt F)) : (⟨S100000x64, .f32⟩ : BufTy).Contents (Elt F) :=
  Host.scatterAdd scatter_S100000x64_S1700000x1_S1700000x64_1_0_0_1
    (broadcastInDim S100000x64 ![] bcast_S_S100000x64 (constant S_ .f32 0x00000000#32))
    (broadcastInDim S1700000x1 ![0] bcast_S1700000_S1700000x1_0 row)
    (mulf (broadcastInDim S1700000x64 ![0, 1] bcast_S1700000x1_S1700000x64_0_1 (broadcastInDim S1700000x1 ![0] bcast_S1700000_S1700000x1_0 w))
      (Host.gather gather_S100000x64_S1700000x1_S1700000x64_1_0_n_n_0_1_164 T (wrap col)))

variable (U : Valuation τ sig (Elt F))

/-! ### The first stretch: the degree's square root and the small constant -/

theorem stretch0_root :
    after hostOps0 U (Proc.devRef .tc main_v4) = Host.sqrt (degree (F := F) (U (Proc.devRef .tc main_arg3))) := by
  after_results_simp <;> rfl

theorem stretch0_eps :
    after hostOps0 U (Proc.devRef .tc main_cst_1) = (constant S_ .f32 0x2B8CBCCC#32 : (⟨S_, .f32⟩ : BufTy).Contents (Elt F)) := by
  after_results_simp <;> rfl

theorem stretch0_arg0 : after hostOps0 U (Proc.devRef .tc main_arg0) = U (Proc.devRef .tc main_arg0) := by
  after_results_simp <;> rfl
theorem stretch0_arg1 : after hostOps0 U (Proc.devRef .tc main_arg1) = U (Proc.devRef .tc main_arg1) := by
  after_results_simp <;> rfl
theorem stretch0_arg2 : after hostOps0 U (Proc.devRef .tc main_arg2) = U (Proc.devRef .tc main_arg2) := by
  after_results_simp <;> rfl
theorem stretch0_arg3 : after hostOps0 U (Proc.devRef .tc main_arg3) = U (Proc.devRef .tc main_arg3) := by
  after_results_simp <;> rfl
theorem stretch0_arg4 : after hostOps0 U (Proc.devRef .tc main_arg4) = U (Proc.devRef .tc main_arg4) := by
  after_results_simp <;> rfl

/-! ### The second stretch: the bound from below -/

theorem stretch1_clipped :
    after hostOps0_1 U (Proc.devRef .tc main_v5)
      = maximumf (broadcastInDim S100000 ![] bcast_S_S100000 (id (U (Proc.devRef .tc main_cst_1) : (⟨S_, .f32⟩ : BufTy).Contents (Elt F))))
          (U (Proc.devRef .tc main_v4) : (⟨S100000, .f32⟩ : BufTy).Contents (Elt F)) := by
  after_results_simp <;> rfl

theorem stretch1_arg0 : after hostOps0_1 U (Proc.devRef .tc main_arg0) = U (Proc.devRef .tc main_arg0) := by
  after_results_simp <;> rfl
theorem stretch1_arg1 : after hostOps0_1 U (Proc.devRef .tc main_arg1) = U (Proc.devRef .tc main_arg1) := by
  after_results_simp <;> rfl
theorem stretch1_arg2 : after hostOps0_1 U (Proc.devRef .tc main_arg2) = U (Proc.devRef .tc main_arg2) := by
  after_results_simp <;> rfl
theorem stretch1_arg3 : after hostOps0_1 U (Proc.devRef .tc main_arg3) = U (Proc.devRef .tc main_arg3) := by
  after_results_simp <;> rfl
theorem stretch1_arg4 : after hostOps0_1 U (Proc.devRef .tc main_arg4) = U (Proc.devRef .tc main_arg4) := by
  after_results_simp <;> rfl

/-! ### The third stretch: the reciprocal and the two lookups multiplied -/

theorem stretch2_weights :
    after hostOps0_2 U (Proc.devRef .tc main_v22)
      = mulf (Host.gather gather_S100000_S1700000x1_S1700000_n_0_n_n_0_1_1
            (Host.divf (broadcastInDim S100000 ![] bcast_S_S100000 (constant S_ .f32 0x3F800000#32)) (U (Proc.devRef .tc main_v5) : (⟨S100000, .f32⟩ : BufTy).Contents (Elt F)))
            (wrap (F := F) (U (Proc.devRef .tc main_arg3))))
          (Host.gather gather_S100000_S1700000x1_S1700000_n_0_n_n_0_1_1
            (Host.divf (broadcastInDim S100000 ![] bcast_S_S100000 (constant S_ .f32 0x3F800000#32)) (U (Proc.devRef .tc main_v5) : (⟨S100000, .f32⟩ : BufTy).Contents (Elt F)))
            (wrap (F := F) (U (Proc.devRef .tc main_arg4)))) := by
  after_results_simp <;> rfl

theorem stretch2_arg0 : after hostOps0_2 U (Proc.devRef .tc main_arg0) = U (Proc.devRef .tc main_arg0) := by
  after_results_simp <;> rfl
theorem stretch2_arg1 : after hostOps0_2 U (Proc.devRef .tc main_arg1) = U (Proc.devRef .tc main_arg1) := by
  after_results_simp <;> rfl
theorem stretch2_arg2 : after hostOps0_2 U (Proc.devRef .tc main_arg2) = U (Proc.devRef .tc main_arg2) := by
  after_results_simp <;> rfl
theorem stretch2_arg3 : after hostOps0_2 U (Proc.devRef .tc main_arg3) = U (Proc.devRef .tc main_arg3) := by
  after_results_simp <;> rfl
theorem stretch2_arg4 : after hostOps0_2 U (Proc.devRef .tc main_arg4) = U (Proc.devRef .tc main_arg4) := by
  after_results_simp <;> rfl

/-- The three stretches before the first dense stage leave the edge weights in their buffer. -/
theorem weights_stage :
    after hostOps0_2 (after hostOps0_1 (after hostOps0 U)) (Proc.devRef .tc main_v22)
      = edgeWeights (F := F) (U (Proc.devRef .tc main_arg3)) (U (Proc.devRef .tc main_arg4)) := by
  rw [stretch2_weights, stretch1_clipped, stretch1_arg3, stretch1_arg4, stretch0_root, stretch0_eps, stretch0_arg3, stretch0_arg4]
  rfl

/-- and the argument arrays as they were. -/
theorem before_dense1_arg0 : after hostOps0_2 (after hostOps0_1 (after hostOps0 U)) (Proc.devRef .tc main_arg0) = U (Proc.devRef .tc main_arg0) := by
  rw [stretch2_arg0, stretch1_arg0, stretch0_arg0]
theorem before_dense1_arg1 : after hostOps0_2 (after hostOps0_1 (after hostOps0 U)) (Proc.devRef .tc main_arg1) = U (Proc.devRef .tc main_arg1) := by
  rw [stretch2_arg1, stretch1_arg1, stretch0_arg1]
theorem before_dense1_arg2 : after hostOps0_2 (after hostOps0_1 (after hostOps0 U)) (Proc.devRef .tc main_arg2) = U (Proc.devRef .tc main_arg2) := by
  rw [stretch2_arg2, stretch1_arg2, stretch0_arg2]
theorem before_dense1_arg3 : after hostOps0_2 (after hostOps0_1 (after hostOps0 U)) (Proc.devRef .tc main_arg3) = U (Proc.devRef .tc main_arg3) := by
  rw [stretch2_arg3, stretch1_arg3, stretch0_arg3]
theorem before_dense1_arg4 : after hostOps0_2 (after hostOps0_1 (after hostOps0 U)) (Proc.devRef .tc main_arg4) = U (Proc.devRef .tc main_arg4) := by
  rw [stretch2_arg4, stretch1_arg4, stretch0_arg4]

/-! ### Between the dense stages: aggregation over 128 columns -/

theorem between_result :
    after hostOps1 U (Proc.devRef .tc main_v36)
      = aggregate128 (F := F) (U (Proc.devRef .tc main_v22)) (U (Proc.devRef .tc main_v23)) (U (Proc.devRef .tc main_arg3)) (U (Proc.devRef .tc main_arg4)) := by
  after_results_simp <;> rfl

theorem between_arg2 : after hostOps1 U (Proc.devRef .tc main_arg2) = U (Proc.devRef .tc main_arg2) := by
  after_results_simp <;> rfl
theorem between_arg3 : after hostOps1 U (Proc.devRef .tc main_arg3) = U (Proc.devRef .tc main_arg3) := by
  after_results_simp <;> rfl
theorem between_arg4 : after hostOps1 U (Proc.devRef .tc main_arg4) = U (Proc.devRef .tc main_arg4) := by
  after_results_simp <;> rfl
theorem between_weights : after hostOps1 U (Proc.devRef .tc main_v22) = U (Proc.devRef .tc main_v22) := by
  after_results_simp <;> rfl

/-! ### After the second dense stage: aggregation over 64 columns -/

theorem last_result :
    after hostOps2 U (Proc.devRef .tc main_v50)
      = aggregate64 (F := F) (U (Proc.devRef .tc main_v22)) (U (Proc.devRef .tc main_v37)) (U (Proc.devRef .tc main_arg3)) (U (Proc.devRef .tc main_arg4)) := by
  after_results_simp <;> rfl

end Cert.KernelIdeal.Graph

end
-- ==== Proof.Result.lean ====
/-
  What both programs compute, as one function of the five argument arrays.

  With w the edge weights of the graph (HostStages): the first layer is the aggregation, over 128 columns, of the
  product X · W1; the rectifier is applied entry by entry; the second layer is the aggregation, over 64 columns, of
  the product of the rectified table with W2.
-/
import proofs.«149226_j8297876816011_1_alg».proof.Proof.HostStages
import proofs.«149226_j8297876816011_1_alg».proof.Proof.LibRowBlockDot

noncomputable section

open Idealize.ShloMosaic

namespace Cert.KernelIdeal.Whole

open Cert.KernelIdeal

/-- The rectifier, entry by entry: the maximum with zero. -/
def relu (H : S100000x128.Idx → EReal) : S100000x128.Idx → EReal :=
  fun i => FloatOps.maximumf (F := Ideal) (φ := .f32) (H i) (FloatOps.ofBits .f32 0x00000000#32)

/-- The hidden table: the aggregated first product. -/
def hidden (X : S100000x256.Idx → EReal) (W1 : S256x128.Idx → EReal)
    (row col : (⟨S1700000, .i32⟩ : BufTy).Contents (Elt Ideal)) : S100000x128.Idx → EReal :=
  Graph.aggregate128 (F := Ideal) (Graph.edgeWeights (F := Ideal) row col) (RowBlockDot.proj X W1) row col

/-- The two-layer result. -/
def result (X : S100000x256.Idx → EReal) (W1 : S256x128.Idx → EReal) (W2 : S128x64.Idx → EReal)
    (row col : (⟨S1700000, .i32⟩ : BufTy).Contents (Elt Ideal)) : S100000x64.Idx → EReal :=
  Graph.aggregate64 (F := Ideal) (Graph.edgeWeights (F := Ideal) row col)
    (RowBlockDot.proj (relu (hidden X W1 row col)) W2) row col

end Cert.KernelIdeal.Whole

end
-- ==== Proof.Dense2.lean ====
/-
  The second dense stage: the product relu(H) · W2 formed twenty row-blocks at a time.

  Point t of the grid reads rows 5000 t … 5000 t + 4999 of H (all 128 columns) and the whole of W2, replaces every
  entry of its block of H by its maximum with zero, multiplies on the matrix unit into a zero accumulator, and writes
  rows 5000 t … 5000 t + 4999 of the result. On the extended reals the entry (r, c) of the block is the sum over k
  of max (H (5000 t + r, k)) 0 · W2 (k, c): the blocks are restrictions of one function of the two arrays, the
  textbook product of the rectified array with W2, and the twenty blocks tile the result array.
-/
import proofs.«149226_j8297876816011_1_alg».proof.Proof.Gen.KernelIdeal.Frame
import proofs.«149226_j8297876816011_1_alg».proof.Proof.LibRowBlockDot
import proofs.«149226_j8297876816011_1_alg».proof.Proof.Result
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.Dense2

open Cert.KernelIdeal Cert.KernelIdeal.Gen Cert.KernelIdeal.Whole

variable (V : (c : Dev nD) → (b : Ref sig .tc) → Buf (Elt Ideal) ((c : Thread nD τ).loc b))

theorem origin : (![0, 0] : Fin 2 → Nat) = fun _ => 0 := funext fun a => by fin_cases a <;> rfl

/-- The body's product at an entry of the block: when the first operand holds rows `b * 5000 …` of `H` and the second
    holds `W`, the entry `(p, q)` is the entry `(b * 5000 + p, q)` of the product of the rectified `H` with `W`. -/
theorem product_block (H : S100000x128.Idx → EReal) (W : S128x64.Idx → EReal)
    (x0 : Vec Ideal S5000x128 .f32) (x1 : Vec Ideal S128x64 .f32) (b : Nat)
    (hrow : ∀ p : Fin 5000, b * 5000 + p.val < 100000)
    (h0 : ∀ (p : Fin 5000) (k : Fin 128), x0 (ix2 p k) = H (ix2 ⟨b * 5000 + p.val, hrow p⟩ k))
    (h1 : ∀ (k : Fin 128) (q : Fin 64), x1 (ix2 k q) = W (ix2 k q)) (p : Fin 5000) (q : Fin 64) :
    k1_pay1 (F := Ideal) x0 x1 (ix2 p q) = RowBlockDot.proj (relu H) W (ix2 ⟨b * 5000 + p.val, hrow p⟩ q) := by
  unfold k1_pay1
  simp only [shapeCast_self]
  refine RowBlockDot.matmul_block dot_S5000x128_S128x64_S5000x64_1_0_0_1_n_n_wf none (relu H) W _ _ b hrow (fun p k => ?_) h1 p q
  show FloatOps.maximumf (F := Ideal) (φ := .f32) (x0 (ix2 p k)) _ = FloatOps.maximumf (F := Ideal) (φ := .f32) (H _) _
  rw [h0 p k]
  rfl

/-- Where the three windows' blocks sit at point `t`: the row blocks of `H` and of the result move with the point,
    `W2` stays. -/
theorem block_positions : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The first window's block at point `t` is rows `5000 t …` of `H`. -/
theorem rows_block (c : Dev nD) (t : Fin cfg1.N) (y : S5000x128.Idx) (i : S100000x128.Idx)
    (h0 : (i 0).val = t.val * 5000 + (y 0).val) (h1 : (i 1).val = (y 1).val) :
    (iblk1 V c 0 t : Vec Ideal S5000x128 .f32) y = (V c main_v36 : S100000x128.Idx → EReal) i := by
  obtain ⟨e0, e1, -, -, -, -⟩ := block_positions t
  unfold iblk1
  rw [View.read_apply]
  show V c main_v36 _ = V c main_v36 _
  refine congrArg (V c main_v36) ?_
  funext a
  apply Fin.ext
  match a with
  | ⟨0, _⟩ => show win1_0.index t (0 : Fin 2) * 5000 + 1 * (y 0).val = (i 0).val; rw [e0, h0]; omega
  | ⟨1, _⟩ => show win1_0.index t (1 : Fin 2) * 128 + 1 * (y 1).val = (i 1).val; rw [e1, h1]; omega

/-- The second window's block at every point is the whole of `W2`. -/
theorem weights_block (c : Dev nD) (t : Fin cfg1.N) (y : S128x64.Idx) :
    (iblk1 V c 1 t : Vec Ideal S128x64 .f32) y = (V c main_arg2 : S128x64.Idx → EReal) y := by
  obtain ⟨-, -, e0, e1, -, -⟩ := block_positions t
  unfold iblk1
  rw [View.read_apply]
  show V c main_arg2 _ = V c main_arg2 _
  refine congrArg (V c main_arg2) ?_
  funext a
  apply Fin.ext
  match a with
  | ⟨0, _⟩ => show win1_1.index t (0 : Fin 2) * 128 + 1 * (y 0).val = (y 0).val; rw [e0]; omega
  | ⟨1, _⟩ => show win1_1.index t (1 : Fin 2) * 64 + 1 * (y 1).val = (y 1).val; rw [e1]; omega

/-- The product of the rectified first array with the second, as the region finds them. -/
abbrev product (c : Dev nD) : S100000x64.Idx → EReal :=
  RowBlockDot.proj (relu (V c main_v36 : S100000x128.Idx → EReal)) (V c main_arg2 : S128x64.Idx → EReal)

theorem point_lt (t : Fin cfg1.N) : t.val < 20 := lt_of_lt_of_eq t.isLt N_1

/-- What point `t` writes back is block `t` of the product. -/
theorem flushed_eq (c : Dev nD) (t : Fin cfg1.N) :
    (dat1 V c).flushed 2 t = ((cfg1.win 2).blk t).view.read (Elt Ideal) (product V c) := by
  show (cfg1.win 2).cut (grid1.coords t) ((dat1 V c).after 2 t) = _
  rw [after1_2]
  unfold out1_2
  rw [View.canon_unit_zero origin]
  simp only [View.ld_unit_zero (S := S5000x128) origin, View.ld_unit_zero (S := S128x64) origin]
  obtain ⟨-, -, -, -, e0, e1⟩ := block_positions t
  have ht := point_lt t
  funext j
  show k1_pay1 (F := Ideal) (iblk1 V c 0 t) (iblk1 V c 1 t) j = product V c (((cfg1.win 2).blk t).view.emb j)
  have hrow : ∀ p : Fin 5000, t.val * 5000 + p.val < 100000 := fun p => by have := p.isLt; omega
  have hj : (j : S5000x64.Idx) = ix2 (j 0) (j 1) := eq_ix2 j
  have hi : ((cfg1.win 2).blk t).view.emb j = ix2 (⟨t.val * 5000 + (j 0).val, hrow (j 0)⟩ : Fin 100000) (j 1) := by
    funext a
    apply Fin.ext
    match a with
    | ⟨0, _⟩ => show win1_2.index t (0 : Fin 2) * 5000 + 1 * (j 0).val = t.val * 5000 + (j 0).val; rw [e0]; omega
    | ⟨1, _⟩ => show win1_2.index t (1 : Fin 2) * 64 + 1 * (j 1).val = (j 1).val; rw [e1]; omega
  rw [hi, hj]
  exact product_block (V c main_v36) (V c main_arg2) (iblk1 V c 0 t) (iblk1 V c 1 t) t.val hrow
    (fun p k => rows_block V c t (ix2 p k) (ix2 ⟨t.val * 5000 + p.val, hrow p⟩ k) rfl rfl)
    (fun k q => weights_block V c t (ix2 k q)) (j 0) (j 1)

/-- An index of the result array is in point `t`'s block iff each coordinate is in the block's range on its axis. -/
theorem mem_block (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v37).slice (win1_2.rect t)).set ↔ _
  rw [View.set_slice_whole, Rect.mem_set_unit]
  exact Iff.rfl

/-- Row `r` of the result lies in the block of point `r / 5000`: the twenty blocks tile the array. -/
theorem covered (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  let t : Fin cfg1.N := ⟨(i 0).val / 5000, by rw [show cfg1.N = 20 from N_1]; omega⟩
  obtain ⟨-, -, -, -, e0, e1⟩ := block_positions t
  refine ⟨t, flush1_2 t, ?_⟩
  rw [mem_block]
  intro a
  match a with
  | ⟨0, _⟩ =>
    show win1_2.index t (0 : Fin 2) * 5000 ≤ (i 0).val ∧ (i 0).val < win1_2.index t (0 : Fin 2) * 5000 + 5000
    rw [e0]; show (i 0).val / 5000 * 5000 ≤ (i 0).val ∧ (i 0).val < (i 0).val / 5000 * 5000 + 5000; omega
  | ⟨1, _⟩ =>
    show win1_2.index t (1 : Fin 2) * 64 ≤ (i 1).val ∧ (i 1).val < win1_2.index t (1 : Fin 2) * 64 + 64
    rw [e1]; omega

/-- THE RESULT ARRAY of the second dense stage after its region: the product of the rectified first array with the
    second, both as the region was entered with them. -/
theorem result_array (c : Dev nD) : (dat1 V c).arrAt 2 cfg1.N = product V c :=
  (dat1 V c).arrAt_eq_of_cover 2 (product V c) (fun t _ => flushed_eq V c t) covered

end Cert.KernelIdeal.Dense2

end
-- ==== Proof.KernelValue.lean ====
/-
  The idealized kernel's result array, as the one function of the argument arrays.

  The fold of contents through the seven segments is read from the end: the last stretch aggregates, over 64
  columns, the second dense stage's array; that array is the product of the rectified hidden table with W2; the
  hidden table is what the stretch between the stages aggregates, over 128 columns, from the first dense stage's
  array; that array is the product X · W1; and the edge weights and the argument arrays reach every later segment
  unchanged, since no later segment writes their buffers.
-/
import proofs.«149226_j8297876816011_1_alg».proof.Proof.KernelRun
import proofs.«149226_j8297876816011_1_alg».proof.Proof.Dense1
import proofs.«149226_j8297876816011_1_alg».proof.Proof.Dense2
import proofs.«149226_j8297876816011_1_alg».proof.Proof.HostStages
import proofs.«149226_j8297876816011_1_alg».proof.Proof.Result

noncomputable section

open Idealize.ShloMosaic Idealize.ShloMosaic.TcCoe Idealize.SL.Sem

namespace Cert.KernelIdeal.Whole

open Cert.KernelIdeal Cert.KernelIdeal.Gen

variable (m : (ℓ : Loc nD τ sig) → Buf (Elt Ideal) ℓ) (ρ : Dev nD → PrngReg)

/-- The result of the run in the launch memory's arrays. -/
abbrev resultOf (c : Dev nD) : S100000x64.Idx → EReal :=
  result (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

/-! ### At the first dense stage's entry -/

theorem entry1_arg0 (c : Dev nD) : W3 m ρ c (Proc.devRef .tc main_arg0) = m ((c.tc : Thread nD τ).loc main_arg0) :=
  Graph.before_dense1_arg0 (W0 m ρ c)
theorem entry1_arg1 (c : Dev nD) : W3 m ρ c (Proc.devRef .tc main_arg1) = m ((c.tc : Thread nD τ).loc main_arg1) :=
  Graph.before_dense1_arg1 (W0 m ρ c)
theorem entry1_arg2 (c : Dev nD) : W3 m ρ c (Proc.devRef .tc main_arg2) = m ((c.tc : Thread nD τ).loc main_arg2) :=
  Graph.before_dense1_arg2 (W0 m ρ c)
theorem entry1_arg3 (c : Dev nD) : W3 m ρ c (Proc.devRef .tc main_arg3) = m ((c.tc : Thread nD τ).loc main_arg3) :=
  Graph.before_dense1_arg3 (W0 m ρ c)
theorem entry1_arg4 (c : Dev nD) : W3 m ρ c (Proc.devRef .tc main_arg4) = m ((c.tc : Thread nD τ).loc main_arg4) :=
  Graph.before_dense1_arg4 (W0 m ρ c)
theorem entry1_weights (c : Dev nD) :
    W3 m ρ c (Proc.devRef .tc main_v22)
      = Graph.edgeWeights (F := Ideal) (m ((c.tc : Thread nD τ).loc main_arg3)) (m ((c.tc : Thread nD τ).loc main_arg4)) :=
  Graph.weights_stage (W0 m ρ c)

/-! ### At its exit -/

theorem exit1_product (c : Dev nD) :
    W4 m ρ c (Proc.devRef .tc main_v23)
      = RowBlockDot.proj (m ((c.tc : Thread nD τ).loc main_arg0) : S100000x256.Idx → EReal) (m ((c.tc : Thread nD τ).loc main_arg1) : S256x128.Idx → EReal) := by
  refine (W4_arr m ρ c 2).trans ((Dense1.result_array (V3 m ρ) c).trans ?_)
  show RowBlockDot.proj (W3 m ρ c (Proc.devRef .tc main_arg0)) (W3 m ρ c (Proc.devRef .tc main_arg1)) = _
  rw [entry1_arg0, entry1_arg1]

theorem exit1_arg2 (c : Dev nD) : W4 m ρ c (Proc.devRef .tc main_arg2) = m ((c.tc : Thread nD τ).loc main_arg2) :=
  (W4_of_ne m ρ c main_arg2 (by decide)).trans (entry1_arg2 m ρ c)
theorem exit1_arg3 (c : Dev nD) : W4 m ρ c (Proc.devRef .tc main_arg3) = m ((c.tc : Thread nD τ).loc main_arg3) :=
  (W4_of_ne m ρ c main_arg3 (by decide)).trans (entry1_arg3 m ρ c)
theorem exit1_arg4 (c : Dev nD) : W4 m ρ c (Proc.devRef .tc main_arg4) = m ((c.tc : Thread nD τ).loc main_arg4) :=
  (W4_of_ne m ρ c main_arg4 (by decide)).trans (entry1_arg4 m ρ c)
theorem exit1_weights (c : Dev nD) :
    W4 m ρ c (Proc.devRef .tc main_v22)
      = Graph.edgeWeights (F := Ideal) (m ((c.tc : Thread nD τ).loc main_arg3)) (m ((c.tc : Thread nD τ).loc main_arg4)) :=
  (W4_of_ne m ρ c main_v22 (by decide)).trans (entry1_weights m ρ c)

/-! ### At the second dense stage's entry -/

theorem entry2_hidden (c : Dev nD) :
    W5 m ρ c (Proc.devRef .tc main_v36)
      = hidden (m ((c.tc : Thread nD τ).loc main_arg0)) (m ((c.tc : Thread nD τ).loc main_arg1))
          (m ((c.tc : Thread nD τ).loc main_arg3)) (m ((c.tc : Thread nD τ).loc main_arg4)) := by
  refine (Graph.between_result (W4 m ρ c)).trans ?_
  rw [exit1_weights, exit1_product, exit1_arg3, exit1_arg4]
  rfl

theorem entry2_arg2 (c : Dev nD) : W5 m ρ c (Proc.devRef .tc main_arg2) = m ((c.tc : Thread nD τ).loc main_arg2) :=
  (Graph.between_arg2 (W4 m ρ c)).trans (exit1_arg2 m ρ c)
theorem entry2_arg3 (c : Dev nD) : W5 m ρ c (Proc.devRef .tc main_arg3) = m ((c.tc : Thread nD τ).loc main_arg3) :=
  (Graph.between_arg3 (W4 m ρ c)).trans (exit1_arg3 m ρ c)
theorem entry2_arg4 (c : Dev nD) : W5 m ρ c (Proc.devRef .tc main_arg4) = m ((c.tc : Thread nD τ).loc main_arg4) :=
  (Graph.between_arg4 (W4 m ρ c)).trans (exit1_arg4 m ρ c)
theorem entry2_weights (c : Dev nD) :
    W5 m ρ c (Proc.devRef .tc main_v22)
      = Graph.edgeWeights (F := Ideal) (m ((c.tc : Thread nD τ).loc main_arg3)) (m ((c.tc : Thread nD τ).loc main_arg4)) :=
  (Graph.between_weights (W4 m ρ c)).trans (exit1_weights m ρ c)

/-! ### At its exit -/

theorem exit2_product (c : Dev nD) :
    W6 m ρ c (Proc.devRef .tc main_v37)
      = RowBlockDot.proj (relu (hidden (m ((c.tc : Thread nD τ).loc main_arg0)) (m ((c.tc : Thread nD τ).loc main_arg1))
          (m ((c.tc : Thread nD τ).loc main_arg3)) (m ((c.tc : Thread nD τ).loc main_arg4))))
          (m ((c.tc : Thread nD τ).loc main_arg2) : S128x64.Idx → EReal) := by
  refine (W6_arr m ρ c 2).trans ((Dense2.result_array (V5 m ρ) c).trans ?_)
  show RowBlockDot.proj (relu (W5 m ρ c (Proc.devRef .tc main_v36))) (W5 m ρ c (Proc.devRef .tc main_arg2)) = _
  rw [entry2_hidden, entry2_arg2]

theorem exit2_arg3 (c : Dev nD) : W6 m ρ c (Proc.devRef .tc main_arg3) = m ((c.tc : Thread nD τ).loc main_arg3) :=
  (W6_of_ne m ρ c main_arg3 (by decide)).trans (entry2_arg3 m ρ c)
theorem exit2_arg4 (c : Dev nD) : W6 m ρ c (Proc.devRef .tc main_arg4) = m ((c.tc : Thread nD τ).loc main_arg4) :=
  (W6_of_ne m ρ c main_arg4 (by decide)).trans (entry2_arg4 m ρ c)
theorem exit2_weights (c : Dev nD) :
    W6 m ρ c (Proc.devRef .tc main_v22)
      = Graph.edgeWeights (F := Ideal) (m ((c.tc : Thread nD τ).loc main_arg3)) (m ((c.tc : Thread nD τ).loc main_arg4)) :=
  (W6_of_ne m ρ c main_v22 (by decide)).trans (entry2_weights m ρ c)

/-! ### After the last stretch -/

/-- The fold's value at the result buffer is the two-layer result of the launch memory's arrays. -/
theorem fold_result (c : Dev nD) : W7 m ρ c (Proc.devRef .tc main_v50) = resultOf m c := by
  refine (Graph.last_result (W6 m ρ c)).trans ?_
  rw [exit2_weights, exit2_product, exit2_arg3, exit2_arg4]
  rfl

/-- THE RUN: every weakly fair execution of the idealized kernel terminates with the result array at the two-layer
    result of the argument arrays, which end as launched. -/
theorem run : θ_run defs (onTc (τ := τ) (main (F := Ideal))) ⟨m, fun _ => 0, ρ⟩ (fun r => ∀ c : Dev nD,
      r.2.mem ((c.tc : Thread nD τ).loc main_v50) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (fold_result m ρ c), (h c).2⟩) (run_fold (F := Ideal) m ρ)

end Cert.KernelIdeal.Whole

end
-- ==== Proof.RefValue.lean ====
/-
  The idealized reference's result, as the same function of the argument arrays.

  The reference runs the same graph-side operations as the kernel's host stretches, with the two dense stages as
  whole products on the host: its operations, read one at a time, are the edge weights, the product X · W1, the
  aggregation over 128 columns, the maximum with a table of zeros, the product with W2, the aggregation over 64
  columns. On the extended reals the host's product is the textbook sum, and the maximum with the zero table is the
  rectifier entry by entry.
-/
import proofs.«149226_j8297876816011_1_alg».proof.Proof.Gen.ReferenceIdeal.Read
import proofs.«149226_j8297876816011_1_alg».proof.Proof.Result

noncomputable section

open Idealize.ShloMosaic Idealize.ShloMosaic.TcCoe Idealize.SL.Sem

namespace Cert.ReferenceIdeal.Whole

open Cert.ReferenceIdeal Cert.ReferenceIdeal.Read
open Cert.KernelIdeal.Whole (relu hidden result)
open Cert.KernelIdeal (Graph.edgeWeights Graph.aggregate128 Graph.aggregate64)

variable (x0 : (⟨S100000x256, .f32⟩ : BufTy).Contents (Elt Ideal)) (x1 : (⟨S256x128, .f32⟩ : BufTy).Contents (Elt Ideal))
  (x2 : (⟨S128x64, .f32⟩ : BufTy).Contents (Elt Ideal)) (x3 x4 : (⟨S1700000, .i32⟩ : BufTy).Contents (Elt Ideal))

/-- The edge weights: the same operations, term for term. -/
theorem weights_eq : val_main_v22 (F := Ideal) x3 x4 = Cert.KernelIdeal.Graph.edgeWeights (F := Ideal) x3 x4 := rfl

/-- The first product on the host is the textbook product. -/
theorem product1_eq : val_main_v23 (F := Ideal) x0 x1 = RowBlockDot.proj x0 x1 := by
  unfold val_main_v23
  simp only [Host.dotGeneral]
  exact RowBlockDot.dotGeneral_eq_proj Facts₀.dot_S100000x256_S256x128_S100000x128_1_0_0_1_n_n_wf none _ x0 x1

/-- The first aggregation: the same operations, term for term. -/
theorem hidden_eq : val_main_v36 (F := Ideal) x0 x1 x3 x4 = hidden x0 x1 x3 x4 := by
  show Cert.KernelIdeal.Graph.aggregate128 (F := Ideal) (val_main_v22 (F := Ideal) x3 x4) (val_main_v23 (F := Ideal) x0 x1) x3 x4 = _
  rw [weights_eq, product1_eq]
  rfl

/-- The maximum with the table of zeros is the rectifier. -/
theorem rectified_eq : val_main_v37 (F := Ideal) x0 x1 x3 x4 = relu (hidden x0 x1 x3 x4) := by
  funext i
  rw [val_main_v37_apply, val_main_call1_v0_apply, val_main_call1_cst_apply, hidden_eq]
  rfl

/-- The second product on the host is the textbook product with the rectified table. -/
theorem product2_eq : val_main_v38 (F := Ideal) x0 x1 x2 x3 x4 = RowBlockDot.proj (relu (hidden x0 x1 x3 x4)) x2 := by
  unfold val_main_v38
  simp only [Host.dotGeneral]
  rw [rectified_eq]
  exact RowBlockDot.dotGeneral_eq_proj Facts₀.dot_S100000x128_S128x64_S100000x64_1_0_0_1_n_n_wf none _ _ x2

/-- THE REFERENCE'S RESULT is the two-layer result. -/
theorem result_eq : val_main_v51 (F := Ideal) x0 x1 x2 x3 x4 = result x0 x1 x2 x3 x4 := by
  show Cert.KernelIdeal.Graph.aggregate64 (F := Ideal) (val_main_v22 (F := Ideal) x3 x4) (val_main_v38 (F := Ideal) x0 x1 x2 x3 x4) x3 x4 = _
  rw [weights_eq, product2_eq]
  rfl

end Cert.ReferenceIdeal.Whole

end
-- ==== Proof.lean ====
/-
  A two-layer graph convolution: the kernel against its jnp reference, equal on the extended reals.

  Both programs compute, from node features X, weights W1 and W2, and the edges' end points `row` and `col`:
  the symmetric degree normalisation as one weight per edge; layer one, the aggregation over the edges of the rows of
  X · W1; the rectifier; layer two, the aggregation of the rows of relu(·) · W2. The graph-side operations (degree,
  square root, clipping, reciprocal, lookups, scatter-adds) are the same host operations in both programs. They differ
  in the two dense products only: the kernel forms each in twenty blocks of 5000 rows on the matrix unit, after
  rounding the operands to a narrower format and — for the second — rectifying inside the block; the reference forms
  each product whole on the host. On the extended reals the rounding is the identity, a block's entry is the same
  finite sum over the contraction axis as the whole product's entry, and the twenty blocks tile the array: so each
  dense stage leaves the textbook product, and the two results are one function of the arguments (`Whole.result`).
  No law used needs finiteness: both sides form the same sums and products in the same arrangement.

  The modules: LibPlainDot, LibRowBlockDot (a plain product and its row blocks, generic in the extents); HostStages (the graph
  side, and each host stretch's result from any contents); Result (the common function); Dense1, Dense2 (each dense
  stage's array after its region); KernelRun (the program's run with the result buffer named); KernelValue (the
  kernel's result); RefValue (the reference's result).
-/
import proofs.«149226_j8297876816011_1_alg».proof.Defs
import proofs.«149226_j8297876816011_1_alg».proof.Proof.Gen.Kernel
import proofs.«149226_j8297876816011_1_alg».proof.Proof.Gen.Kernel.Skeleton
import proofs.«149226_j8297876816011_1_alg».proof.Proof.Gen.Kernel.Launch
import proofs.«149226_j8297876816011_1_alg».proof.Proof.Gen.Kernel.Points
import proofs.«149226_j8297876816011_1_alg».proof.Proof.Gen.Kernel.Frame
import proofs.«149226_j8297876816011_1_alg».proof.Proof.Gen.KernelIdeal
import proofs.«149226_j8297876816011_1_alg».proof.Proof.Gen.KernelIdeal.Skeleton
import proofs.«149226_j8297876816011_1_alg».proof.Proof.Gen.KernelIdeal.Launch
import proofs.«149226_j8297876816011_1_alg».proof.Proof.Gen.KernelIdeal.Points
import proofs.«149226_j8297876816011_1_alg».proof.Proof.Gen.KernelIdeal.Frame
import proofs.«149226_j8297876816011_1_alg».proof.Proof.Gen.ReferenceIdeal
import proofs.«149226_j8297876816011_1_alg».proof.Proof.Gen.ReferenceIdeal.Run
import proofs.«149226_j8297876816011_1_alg».proof.Proof.Gen.ReferenceIdeal.Read
import proofs.«149226_j8297876816011_1_alg».proof.Proof.Gen.Pre_finite_inputs
import proofs.«149226_j8297876816011_1_alg».proof.Proof.KernelValue
import proofs.«149226_j8297876816011_1_alg».proof.Proof.RefValue
import Idealize.ShloMosaic.Adequacy
import Idealize.ShloMosaic.Init

noncomputable section

namespace Cert.Proof

open Idealize.ShloMosaic Idealize.SL.Sem

/-- The word-level kernel runs and leaves its arguments. -/
theorem frame_kernel : Cert.frame_Kernel := fun m ρ _ => Cert.Kernel.Gen.frame m ρ

/-- The idealized kernel runs and leaves its arguments. -/
theorem frame_kernelIdeal : Cert.frame_KernelIdeal := fun m ρ _ => Cert.KernelIdeal.Gen.frame m ρ

/-- The idealized reference runs and leaves its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the two-layer result of those arguments. -/
theorem algebraic : Cert.algebraic_KernelIdeal_ReferenceIdeal := by
  intro m ρ m' ρ' _ hagree
  refine ⟨fun c => Cert.KernelIdeal.Whole.resultOf m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v51_eq, Cert.ReferenceIdeal.Whole.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
